-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S262144 : Shape := ⟨1, ![262144]⟩
abbrev S4096 : Shape := ⟨1, ![4096]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S262144 : S_.BroadcastsInDim S262144 (![] : Fin 0 → Fin S262144.rank)
  reducesTo_S262144_S_d0 : S262144.ReducesTo [0] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096 .f32) (main_arg5 : FVec F S4096 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  let main_cst_10 : FVec F S_ .f32 := constant S_ .f32 0x00000000#32
  let main_v29 : FVec F S4096 .f32 := broadcastInDim S4096 ![] bcast_S_S4096 main_cst_10
  let main_v30 : IVec S4096 1 := cmpf .oge main_arg5 main_v29
  let main_c_11 : IVec S_ 1 := constantI S_ 1 1#1
  let main_v31 : IVec S_ 1 := (fun x v => Host.reduce IntOp.andi x v reducesTo_S4096_S_d0 h_S_) main_v30 main_c_11
  let main_v32 : IVec S_ 1 := andi main_v28 main_v31
  main_v32

def fn {F : FTy → Type} [FloatOps F] (main_arg0 : FVec F S16384x4096 .f32) (main_arg1 : FVec F S262144 .f32) (main_arg2 : FVec F S4096 .f32) (main_arg3 : FVec F S4096 .f32) (main_arg4 : FVec F S4096 .f32) (main_arg5 : FVec F S4096 .f32) (main_arg6 : IVec S262144 32) (main_arg7 : IVec S262144 32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S262144 .f32 := Host.absf main_arg1
  let main_cst_0 : FVec F S_ .f32 := constant S_ .f32 0x7F800000#32
  let main_v5 : FVec F S262144 .f32 := broadcastInDim S262144 ![] bcast_S_S262144 main_cst_0
  let main_v6 : IVec S262144 1 := cmpf .olt main_v4 main_v5
  let main_c_1 : IVec S_ 1 := constantI S_ 1 1#1
  let main_v7 : IVec S_ 1 := (fun x v => Host.reduce IntOp.andi x v reducesTo_S262144_S_d0 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_arg5 main_v13 main_v16
-- ==== Kernel.lean ====
abbrev S16384x4096 : Shape := ⟨2, ![16384, 4096]⟩
abbrev S262144 : Shape := ⟨1, ![262144]⟩
abbrev S4096 : Shape := ⟨1, ![4096]⟩
abbrev S_ : Shape := ⟨0, ![]⟩
abbrev S4096x1024 : Shape := ⟨2, ![4096, 1024]⟩
abbrev S262144x1 : Shape := ⟨2, ![262144, 1]⟩
abbrev S262144x2 : Shape := ⟨2, ![262144, 2]⟩
abbrev S1x4096 : Shape := ⟨2, ![1, 4096]⟩
abbrev S16384x1024 : Shape := ⟨2, ![16384, 1024]⟩
abbrev S1024x512 : Shape := ⟨2, ![1024, 512]⟩
abbrev S1x512 : Shape := ⟨2, ![1, 512]⟩
abbrev S512x1024 : Shape := ⟨2, ![512, 1024]⟩
abbrev S1024x1024 : Shape := ⟨2, ![1024, 1024]⟩

abbrev nBuf : Space → Nat
  | .hbm => 39
  | .vmem => 11
  | .smem => 0
  | _ => 0

abbrev bufTy : (tb : Table) → Fin (tcTables nBuf tb) → BufTy
  | .hbm, ⟨0, _⟩ => ⟨S16384x4096, .f32⟩
  | .hbm, ⟨1, _⟩ => ⟨S262144, .f32⟩
  | .hbm, ⟨2, _⟩ => ⟨S4096, .f32⟩
  | .hbm, ⟨3, _⟩ => ⟨S4096, .f32⟩
  | .hbm, ⟨4, _⟩ => ⟨S4096, .f32⟩
  | .hbm, ⟨5, _⟩ => ⟨S4096, .f32⟩
  | .hbm, ⟨6, _⟩ => ⟨S262144, .i32⟩
  | .hbm, ⟨7, _⟩ => ⟨S262144, .i32⟩
  | .hbm, ⟨8, _⟩ => ⟨S_, .f32⟩
  | .hbm, ⟨9, _⟩ => ⟨S4096x1024, .f32⟩
  | .hbm, ⟨10, _⟩ => ⟨S_, .i32⟩
  | .hbm, ⟨11, _⟩ => ⟨S262144, .i32⟩
  | .hbm, ⟨12, _⟩ => ⟨S262144, .i1⟩
  | .hbm, ⟨13, _⟩ => ⟨S_, .i32⟩
  | .hbm, ⟨14, _⟩ => ⟨S262144, .i32⟩
  | .hbm, ⟨15, _⟩ => ⟨S262144, .i32⟩
  | .hbm, ⟨16, _⟩ => ⟨S262144, .i32⟩
  | .hbm, ⟨17, _⟩ => ⟨S_, .i32⟩
  | .hbm, ⟨18, _⟩ => ⟨S262144, .i32⟩
  | .hbm, ⟨19, _⟩ => ⟨S262144, .i1⟩
  | .hbm, ⟨20, _⟩ => ⟨S_, .i32⟩
  | .hbm, ⟨21, _⟩ => ⟨S262144, .i32⟩
  | .hbm, ⟨22, _⟩ => ⟨S262144, .i32⟩
  | .hbm, ⟨23, _⟩ => ⟨S262144, .i32⟩
  | .hbm, ⟨24, _⟩ => ⟨S262144x1, .i32⟩
  | .hbm, ⟨25, _⟩ => ⟨S262144x1, .i32⟩
  | .hbm, ⟨26, _⟩ => ⟨S262144x2, .i32⟩
  | .hbm, ⟨27, _⟩ => ⟨S4096x1024, .f32⟩
  | .hbm, ⟨28, _⟩ => ⟨S4096x1024, .bf16⟩
  | .hbm, ⟨29, _⟩ => ⟨S_, .f32⟩
  | .hbm, ⟨30, _⟩ => ⟨S4096, .f32⟩
  | .hbm, ⟨31, _⟩ => ⟨S4096, .f32⟩
  | .hbm, ⟨32, _⟩ => ⟨S4096, .f32⟩
  | .hbm, ⟨33, _⟩ => ⟨S4096, .f32⟩
  | .hbm, ⟨34, _⟩ => ⟨S1x4096, .f32⟩
  | .hbm, ⟨35, _⟩ => ⟨S4096, .f32⟩
  | .hbm, ⟨36, _⟩ => ⟨S4096, .f32⟩
  | .hbm, ⟨37, _⟩ => ⟨S1x4096, .f32⟩
  | .hbm, ⟨38, _⟩ => ⟨S16384x1024, .f32⟩
  | .local _ .vmem, ⟨0, _⟩ => ⟨S1024x512, .f32⟩
  | .local _ .vmem, ⟨1, _⟩ => ⟨S1024x512, .f32⟩
  | .local _ .vmem, ⟨2, _⟩ => ⟨S1x512, .f32⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S512x1024, .bf16⟩
  | .local _ .vmem, ⟨7, _⟩ => ⟨S512x1024, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_c : Ref sig .tc := ⟨.hbm, 10, rfl⟩
abbrev main_v1 : Ref sig .tc := ⟨.hbm, 11, rfl⟩
abbrev main_v2 : Ref sig .tc := ⟨.hbm, 12, rfl⟩
abbrev main_c_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_c_1 : Ref sig .tc := ⟨.hbm, 17, rfl⟩
abbrev main_v6 : Ref sig .tc := ⟨.hbm, 18, rfl⟩
abbrev main_v7 : Ref sig .tc := ⟨.hbm, 19, rfl⟩
abbrev main_c_2 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v21 : BitVec 1 := Scalar.cmpi .eq arg1 c7_i32
  let v22 : BitVec 32 := Scalar.extui v21
  let c0_i32_12 : BitVec 32 := 0#32
  let v23 : BitVec 1 := Scalar.cmpi .ne v22 c0_i32_12
  v23

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  bcast_S_S4096x1024 : S_.BroadcastsInDim S4096x1024 (![] : Fin 0 → Fin S4096x1024.rank)
  bcast_S_S262144 : S_.BroadcastsInDim S262144 (![] : Fin 0 → Fin S262144.rank)
  bcast_S262144_S262144x1_0 : S262144.BroadcastsInDim S262144x1 (![0] : Fin 1 → Fin S262144x1.rank)
  concatenates_S262144x1_S262144x1_S262144x2_d1 : Shape.Concatenates [S262144x1, S262144x1] S262144x2 1
  bitsLt_bf16_f32 : FTy.bits .bf16 < FTy.bits .f32
  bcast_S_S4096 : S_.BroadcastsInDim S4096 (![] : Fin 0 → Fin S4096.rank)
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x512_S1024x512_0_0 : ∀ a, (![0, 0] : Fin 2 → Nat) a + S1024x512.size a ≤ S1024x512.size a
  h_S1024x512 : 0 < S1024x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  scatter_S4096x1024_S262144x2_S262144_n_01_01_1_wf : ScatterDims.WF S4096x1024 S262144x2 S262144 [] [0, 1] [0, 1] 1
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S16384x4096.size a
  hwx0_0 : ∀ i : grid0.Coords, EltTy.bits .f32 = 32 ∨ (Rect.block (s := S16384x4096) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512.size a ≤ S1x4096.size a
  hwx0_1 : ∀ i : grid0.Coords, EltTy.bits .f32 = 32 ∨ (Rect.block (s := S1x4096) S1x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x4096.size a
  hwx0_2 : ∀ i : grid0.Coords, EltTy.bits .f32 = 32 ∨ (Rect.block (s := S1x4096) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S4096x1024.size a
  hwx0_3 : ∀ i : grid0.Coords, EltTy.bits .bf16 = 32 ∨ (Rect.block (s := S4096x1024) S512x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S16384x1024.size a
  hwx0_4 : ∀ i : grid0.Coords, EltTy.bits .f32 = 32 ∨ (Rect.block (s := S16384x1024) S1024x1024.size (cc0_transform_4 i) (hinb0_4 i)).WholeWords (EltTy.packing .f32)

variable [Facts₀]

def scatter_S4096x1024_S262144x2_S262144_n_01_01_1 : ScatterDims S4096x1024 S262144x2 S262144 where
  updateWindowDims := []
  insertedWindowDims := [0, 1]
  scatterDimsToOperandDims := [0, 1]
  indexVectorDim := 1
  wf := scatter_S4096x1024_S262144x2_S262144_n_01_01_1_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S1x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S512x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v24) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S16384x4096 : Shape := ⟨2, ![16384, 4096]⟩
abbrev S262144 : Shape := ⟨1, ![262144]⟩
abbrev S4096 : Shape := ⟨1, ![4096]⟩
abbrev S1x4096 : Shape := ⟨2, ![1, 4096]⟩
abbrev S_ : Shape := ⟨0, ![]⟩
abbrev S4096x1024 : Shape := ⟨2, ![4096, 1024]⟩
abbrev S262144x1 : Shape := ⟨2, ![262144, 1]⟩
abbrev S262144x2 : Shape := ⟨2, ![262144, 2]⟩
abbrev S16384x1024 : Shape := ⟨2, ![16384, 1024]⟩

abbrev nBuf : Space → Nat
  | .hbm => 43
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S262144, .f32⟩
  | .hbm, ⟨2, _⟩ => ⟨S4096, .f32⟩
  | .hbm, ⟨3, _⟩ => ⟨S4096, .f32⟩
  | .hbm, ⟨4, _⟩ => ⟨S4096, .f32⟩
  | .hbm, ⟨5, _⟩ => ⟨S4096, .f32⟩
  | .hbm, ⟨6, _⟩ => ⟨S262144, .i32⟩
  | .hbm, ⟨7, _⟩ => ⟨S262144, .i32⟩
  | .hbm, ⟨8, _⟩ => ⟨S1x4096, .f32⟩
  | .hbm, ⟨9, _⟩ => ⟨S16384x4096, .f32⟩
  | .hbm, ⟨10, _⟩ => ⟨S16384x4096, .f32⟩
  | .hbm, ⟨11, _⟩ => ⟨S_, .f32⟩
  | .hbm, ⟨12, _⟩ => ⟨S4096, .f32⟩
  | .hbm, ⟨13, _⟩ => ⟨S4096, .f32⟩
  | .hbm, ⟨14, _⟩ => ⟨S4096, .f32⟩
  | .hbm, ⟨15, _⟩ => ⟨S4096, .f32⟩
  | .hbm, ⟨16, _⟩ => ⟨S1x4096, .f32⟩
  | .hbm, ⟨17, _⟩ => ⟨S16384x4096, .f32⟩
  | .hbm, ⟨18, _⟩ => ⟨S16384x4096, .f32⟩
  | .hbm, ⟨19, _⟩ => ⟨S1x4096, .f32⟩
  | .hbm, ⟨20, _⟩ => ⟨S16384x4096, .f32⟩
  | .hbm, ⟨21, _⟩ => ⟨S16384x4096, .f32⟩
  | .hbm, ⟨22, _⟩ => ⟨S_, .f32⟩
  | .hbm, ⟨23, _⟩ => ⟨S4096x1024, .f32⟩
  | .hbm, ⟨24, _⟩ => ⟨S_, .i32⟩
  | .hbm, ⟨25, _⟩ => ⟨S262144, .i32⟩
  | .hbm, ⟨26, _⟩ => ⟨S262144, .i1⟩
  | .hbm, ⟨27, _⟩ => ⟨S_, .i32⟩
  | .hbm, ⟨28, _⟩ => ⟨S262144, .i32⟩
  | .hbm, ⟨29, _⟩ => ⟨S262144, .i32⟩
  | .hbm, ⟨30, _⟩ => ⟨S262144, .i32⟩
  | .hbm, ⟨31, _⟩ => ⟨S_, .i32⟩
  | .hbm, ⟨32, _⟩ => ⟨S262144, .i32⟩
  | .hbm, ⟨33, _⟩ => ⟨S262144, .i1⟩
  | .hbm, ⟨34, _⟩ => ⟨S_, .i32⟩
  | .hbm, ⟨35, _⟩ => ⟨S262144, .i32⟩
  | .hbm, ⟨36, _⟩ => ⟨S262144, .i32⟩
  | .hbm, ⟨37, _⟩ => ⟨S262144, .i32⟩
  | .hbm, ⟨38, _⟩ => ⟨S262144x1, .i32⟩
  | .hbm, ⟨39, _⟩ => ⟨S262144x1, .i32⟩
  | .hbm, ⟨40, _⟩ => ⟨S262144x2, .i32⟩
  | .hbm, ⟨41, _⟩ => ⟨S4096x1024, .f32⟩
  | .hbm, ⟨42, _⟩ => ⟨S16384x1024, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_c : Ref sig .tc := ⟨.hbm, 24, rfl⟩
abbrev main_v14 : Ref sig .tc := ⟨.hbm, 25, rfl⟩
abbrev main_v15 : Ref sig .tc := ⟨.hbm, 26, rfl⟩
abbrev main_c_1 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_2 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S16384x4096_0_1 : S1x4096.BroadcastsInDim S16384x4096 (![0, 1] : Fin 2 → Fin S16384x4096.rank)
  bcast_S_S4096 : S_.BroadcastsInDim S4096 (![] : Fin 0 → Fin S4096.rank)
  bcast_S_S4096x1024 : S_.BroadcastsInDim S4096x1024 (![] : Fin 0 → Fin S4096x1024.rank)
  bcast_S_S262144 : S_.BroadcastsInDim S262144 (![] : Fin 0 → Fin S262144.rank)
  bcast_S262144_S262144x1_0 : S262144.BroadcastsInDim S262144x1 (![0] : Fin 1 → Fin S262144x1.rank)
  concatenates_S262144x1_S262144x1_S262144x2_d1 : Shape.Concatenates [S262144x1, S262144x1] S262144x2 1
  scatter_S4096x1024_S262144x2_S262144_n_01_01_1_wf : ScatterDims.WF S4096x1024 S262144x2 S262144 [] [0, 1] [0, 1] 1
  dot_S16384x4096_S4096x1024_S16384x1024_1_0_0_1_n_n_wf : DotDims.WF S16384x4096 S4096x1024 S16384x1024 [1] [0] [0] [1] [] []

variable [Facts₀]

def scatter_S4096x1024_S262144x2_S262144_n_01_01_1 : ScatterDims S4096x1024 S262144x2 S262144 where
  updateWindowDims := []
  insertedWindowDims := [0, 1]
  scatterDimsToOperandDims := [0, 1]
  indexVectorDim := 1
  wf := scatter_S4096x1024_S262144x2_S262144_n_01_01_1_wf
def dot_S16384x4096_S4096x1024_S16384x1024_1_0_0_1_n_n : DotDims S16384x4096 S4096x1024 S16384x1024 where
  lhsContracting := [1]
  rhsContracting := [0]
  lhsNonContracting := [0]
  rhsNonContracting := [1]
  lhsBatch := []
  rhsBatch := []
  wf := dot_S16384x4096_S4096x1024_S16384x1024_1_0_0_1_n_n_wf

class Facts : Prop extends Facts₀ where

variable [Facts]
-- ==== Proof.LibPlainMatmul.lean ====
/-
  A matrix product of an M × K by a K × N matrix into a zero accumulator, read at one entry on the extended
  reals: entry (i, j) is Σ_k lhs (i, k) · rhs (k, j). No rounding and no order of accumulation is left in it.
-/
import Idealize.ShloMosaic.PureOps.Ideal.Laws
import Idealize.ShloMosaic.Lib.ValueIdx

noncomputable section

namespace Cert.PlainMatmul

open Idealize.ShloMosaic Idealize.ShloMosaic.ValueIdx

/-- Entry (i, j) of the product of `lhs` (M × K) and `rhs` (K × N) accumulated into zeros. -/
theorem matmul_zero_apply (M K N : Nat) {φ₁ φ₂ : FTy} (prec : Option ContractPrecision)
    (lhs : FVec Ideal ⟨2, ![M, K]⟩ φ₁) (rhs : FVec Ideal ⟨2, ![K, N]⟩ φ₂) (i : Fin M) (j : Fin N) :
    FloatOps.matmul (DotDims.plain M K N) prec lhs rhs (constant ⟨2, ![M, N]⟩ .f32 0x00000000#32) (ix2 i j)
      = ∑ k : Fin K, lhs (ix2 i k) * rhs (ix2 k j) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => rfl
      | ⟨1, _⟩ => exact ((DotDims.plain M K N).lhsIdx_val_of_single rfl _ _).trans hk)
  have er : (DotDims.plain M K N).rhsIdx (ix2 i j) ((contrEquiv1 (DotDims.plain M K N) K rfl rfl).symm k) = ix2 k j :=
    funext fun a => Fin.ext (by
      match a with
      | ⟨0, _⟩ => exact ((DotDims.plain M K N).rhsIdx_val_of_single rfl _ _).trans hk
      | ⟨1, _⟩ => rfl)
  rw [el, er]

end Cert.PlainMatmul

end
-- ==== Proof.Payload.lean ====
/-
  What one grid point computes, read at one entry on the extended reals.

  The reset stores the zero block. Every point then adds to the running block, at (p, q), the product of one
  1024 × 512 block of scaled-and-shifted inputs with one 512 × 1024 block of weights:
      acc (p, q) + Σ_j (x (p, j) · scale (0, j) + shift (0, j)) · w (j, q).
  The scale and the shift are one row each, read on every row p; the narrowing of the left operand to bf16 is the
  identity on extended reals; the product into a zero block is the plain sum over the 512 contracted positions.
-/
import proofs.«119042_j39324720562890_1_alg».proof.Proof.Gen.KernelIdeal.Skeleton
import proofs.«119042_j39324720562890_1_alg».proof.Proof.LibPlainMatmul
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Body

open Cert.KernelIdeal Cert.KernelIdeal.Gen Idealize.ShloMosaic Idealize.ShloMosaic.ValueIdx

/-- The reset block is zero at every entry. -/
theorem reset_apply (y : S1024x1024.Idx) : k0_pay1 (F := Ideal) y = 0 := by
  unfold k0_pay1
  simp only [shapeCast_self]
  show Ideal.ofBits .f32 0x00000000#32 = 0
  exact Ideal.ofBits_zero_f32

/-- The j-th summand of a step at (p, q): the scaled-and-shifted input at (p, j) times the weight at (j, q). -/
def summand (x : Vec Ideal S1024x512 .f32) (sc sh : Vec Ideal S1x512 .f32) (w : Vec Ideal S512x1024 .bf16)
    (p q : Fin 1024) (j : Fin 512) : EReal :=
  (x (ix2 p j) * sc (ix2 (0 : Fin 1) j) + sh (ix2 (0 : Fin 1) j)) * w (ix2 j q)

/-- One accumulation step at entry (p, q). -/
theorem step_apply (x : Vec Ideal S1024x512 .f32) (sc sh : Vec Ideal S1x512 .f32) (acc : Vec Ideal S1024x1024 .f32)
    (w : Vec Ideal S512x1024 .bf16) (p q : Fin 1024) :
    k0_pay2 (F := Ideal) x sc sh acc w (ix2 p q) = acc (ix2 p q) + ∑ j : Fin 512, summand x sc sh w p q j := by
  unfold k0_pay2
  simp only [shapeCast_self]
  refine (addf_apply _ _ _).trans ?_
  refine congrArg (acc (ix2 p q) + ·) ?_
  refine (Cert.PlainMatmul.matmul_zero_apply 1024 512 1024 (φ₁ := .bf16) (φ₂ := .bf16) none _ w p q).trans ?_
  refine Finset.sum_congr rfl fun j _ => ?_
  unfold summand
  refine congrArg (· * w (ix2 j q)) ?_
  show x (ix2 p j) * broadcastTo S1024x512 sc broadcasts_S1x512_S1024x512 (ix2 p j)
      + broadcastTo S1024x512 sh broadcasts_S1x512_S1024x512 (ix2 p j) = _
  rw [broadcastTo_1b_ab_apply sc _ p j, broadcastTo_1b_ab_apply sh _ p j]

end Cert.KernelIdeal.Body

end
-- ==== Proof.Pieces.lean ====
/-
  What each control case of the body leaves behind, as the body's arithmetic applied to the blocks it loaded.

  Every case ends by storing, over the whole carried 1024 × 1024 block, the accumulation step of the loaded input,
  scale, shift and weight blocks and of the carried block as it stood. At the first point of a row of the grid the
  carried block was just reset, so the step is applied to the zero block; at the other points it is applied to what
  the point before left. At the last point of a row the output block receives a copy of the carried block after the
  step.
-/
import proofs.«119042_j39324720562890_1_alg».proof.Proof.Gen.KernelIdeal.Frame
import Idealize.ShloMosaic.Lib.Pipeline.Value
import Idealize.ShloMosaic.Lib.Tactic

noncomputable section

namespace Cert.KernelIdeal.Body

open Cert.KernelIdeal Cert.KernelIdeal.Gen Idealize.ShloMosaic Idealize.ShloMosaic.TcCoe Idealize.SL.Sem

variable {F : FTy → Type} [FloatOps F]

theorem zero_offsets : (![0, 0] : Fin 2 → Nat) = fun _ => 0 := funext fun a => by fin_cases a <;> rfl

/-- First point of a row: the step over the zero block. -/
theorem carried_A (c : Dev nD) (i : grid0.Coords)
    (a2 : Memref sig .tc .vmem S1024x512 .f32) (h2 : a2.IsWhole) (a3 : Memref sig .tc .vmem S1x512 .f32) (h3 : a3.IsWhole)
    (a4 : Memref sig .tc .vmem S1x512 .f32) (h4 : a4.IsWhole) (a5 : Memref sig .tc .vmem S512x1024 .bf16) (h5 : a5.IsWhole)
    (a6 : Memref sig .tc .vmem S1024x1024 .f32) (h6 : a6.IsWhole) (a7 : Memref sig .tc .vmem S1024x1024 .f32) (h7 : a7.IsWhole)
    (hc0 : cond0_0 i) (hc1 : ¬cond0_1 i)
    (x0 : Vec F S1024x512 .f32) (x1 x2 : Vec F S1x512 .f32) (x3 : Vec F S512x1024 .bf16) :
    sout0_A_0 c i a2 h2 a3 h3 a4 h4 a5 h5 a6 h6 a7 h7 hc0 hc1 x0 x1 x2 x3 = k0_pay2 x0 x1 x2 k0_pay1 x3 := by
  unfold sout0_A_0
  rw [View.read_writes_eq_canon _ _ _ (scover0_A_0 c i a2 h2 a3 h3 a4 h4 a5 h5 a6 h6 a7 h7 hc0 hc1 x0 x1 x2 x3)]
  unfold kernelRun0_A
  dsimp only
  sl_unfold_words
  rw [View.canon_cons_unit_zero (S := S1024x1024) zero_offsets, View.readCov_unit_zero (S := S1024x1024) _ zero_offsets]
  simp only [View.readAt_eq_ld, h2.read_unread, h3.read_unread, h4.read_unread, h5.read_unread, h7.read_unread,
    View.ld_unit_zero (S := S1024x512) zero_offsets, View.ld_unit_zero (S := S1x512) zero_offsets,
    View.ld_unit_zero (S := S512x1024) zero_offsets, View.ld_unit_zero (S := S1024x1024) zero_offsets]

/-- A middle point: the step over what the point before left. -/
theorem carried_B (c : Dev nD) (i : grid0.Coords)
    (a2 : Memref sig .tc .vmem S1024x512 .f32) (h2 : a2.IsWhole) (a3 : Memref sig .tc .vmem S1x512 .f32) (h3 : a3.IsWhole)
    (a4 : Memref sig .tc .vmem S1x512 .f32) (h4 : a4.IsWhole) (a5 : Memref sig .tc .vmem S512x1024 .bf16) (h5 : a5.IsWhole)
    (a6 : Memref sig .tc .vmem S1024x1024 .f32) (h6 : a6.IsWhole) (a7 : Memref sig .tc .vmem S1024x1024 .f32) (h7 : a7.IsWhole)
    (hc0 : ¬cond0_0 i) (hc1 : ¬cond0_1 i)
    (x0 : Vec F S1024x512 .f32) (x1 x2 : Vec F S1x512 .f32) (x3 : Vec F S512x1024 .bf16) (xs0 : Vec F S1024x1024 .f32) :
    sout0_B_0 c i a2 h2 a3 h3 a4 h4 a5 h5 a6 h6 a7 h7 hc0 hc1 x0 x1 x2 x3 xs0 = k0_pay2 x0 x1 x2 xs0 x3 := by
  unfold sout0_B_0
  rw [View.read_writes_eq_canon _ _ _ (scover0_B_0 c i a2 h2 a3 h3 a4 h4 a5 h5 a6 h6 a7 h7 hc0 hc1 x0 x1 x2 x3 xs0)]
  unfold kernelRun0_B
  dsimp only
  rw [View.canon_unit_zero zero_offsets]
  simp only [View.readAt_eq_ld, h2.read_unread, h3.read_unread, h4.read_unread, h5.read_unread, h7.read_unread,
    View.ld_unit_zero (S := S1024x512) zero_offsets, View.ld_unit_zero (S := S1x512) zero_offsets,
    View.ld_unit_zero (S := S512x1024) zero_offsets, View.ld_unit_zero (S := S1024x1024) zero_offsets]

/-- Last point of a row, the carried block: the step over what the point before left. -/
theorem carried_C (c : Dev nD) (i : grid0.Coords)
    (a2 : Memref sig .tc .vmem S1024x512 .f32) (h2 : a2.IsWhole) (a3 : Memref sig .tc .vmem S1x512 .f32) (h3 : a3.IsWhole)
    (a4 : Memref sig .tc .vmem S1x512 .f32) (h4 : a4.IsWhole) (a5 : Memref sig .tc .vmem S512x1024 .bf16) (h5 : a5.IsWhole)
    (a6 : Memref sig .tc .vmem S1024x1024 .f32) (h6 : a6.IsWhole) (a7 : Memref sig .tc .vmem S1024x1024 .f32) (h7 : a7.IsWhole)
    (hc0 : ¬cond0_0 i) (hc1 : cond0_1 i)
    (x0 : Vec F S1024x512 .f32) (x1 x2 : Vec F S1x512 .f32) (x3 : Vec F S512x1024 .bf16) (xs0 : Vec F S1024x1024 .f32) :
    sout0_C_0 c i a2 h2 a3 h3 a4 h4 a5 h5 a6 h6 a7 h7 hc0 hc1 x0 x1 x2 x3 xs0 = k0_pay2 x0 x1 x2 xs0 x3 := by
  unfold sout0_C_0
  rw [View.read_writes_eq_canon _ _ _ (scover0_C_0 c i a2 h2 a3 h3 a4 h4 a5 h5 a6 h6 a7 h7 hc0 hc1 x0 x1 x2 x3 xs0)]
  unfold kernelRun0_C
  dsimp only
  sl_unfold_words
  rw [View.canon_unit_zero zero_offsets]
  simp only [View.readAt_eq_ld, h2.read_unread, h3.read_unread, h4.read_unread, h5.read_unread, h7.read_unread,
    View.ld_unit_zero (S := S1024x512) zero_offsets, View.ld_unit_zero (S := S1x512) zero_offsets,
    View.ld_unit_zero (S := S512x1024) zero_offsets, View.ld_unit_zero (S := S1024x1024) zero_offsets]

/-- Last point of a row, the output block: a copy of the carried block after the step. -/
theorem output_C (c : Dev nD) (i : grid0.Coords)
    (a2 : Memref sig .tc .vmem S1024x512 .f32) (h2 : a2.IsWhole) (a3 : Memref sig .tc .vmem S1x512 .f32) (h3 : a3.IsWhole)
    (a4 : Memref sig .tc .vmem S1x512 .f32) (h4 : a4.IsWhole) (a5 : Memref sig .tc .vmem S512x1024 .bf16) (h5 : a5.IsWhole)
    (a6 : Memref sig .tc .vmem S1024x1024 .f32) (h6 : a6.IsWhole) (a7 : Memref sig .tc .vmem S1024x1024 .f32) (h7 : a7.IsWhole)
    (hc0 : ¬cond0_0 i) (hc1 : cond0_1 i)
    (x0 : Vec F S1024x512 .f32) (x1 x2 : Vec F S1x512 .f32) (x3 : Vec F S512x1024 .bf16) (xs0 : Vec F S1024x1024 .f32) :
    out0_C_4 c i a2 h2 a3 h3 a4 h4 a5 h5 a6 h6 a7 h7 hc0 hc1 x0 x1 x2 x3 xs0 = k0_pay2 x0 x1 x2 xs0 x3 := by
  unfold out0_C_4
  rw [View.read_writes_eq_canon _ _ _ (cover0_C_4 c i a2 h2 a3 h3 a4 h4 a5 h5 a6 h6 a7 h7 hc0 hc1 x0 x1 x2 x3 xs0)]
  unfold kernelRun0_C
  dsimp only
  sl_unfold_words
  rw [View.canon_unit_zero zero_offsets, View.readCov_unit_zero (S := S1024x1024) _ zero_offsets]
  simp only [View.readAt_eq_ld, h2.read_unread, h3.read_unread, h4.read_unread, h5.read_unread, h7.read_unread,
    View.ld_unit_zero (S := S1024x512) zero_offsets, View.ld_unit_zero (S := S1x512) zero_offsets,
    View.ld_unit_zero (S := S512x1024) zero_offsets, View.ld_unit_zero (S := S1024x1024) zero_offsets]

end Cert.KernelIdeal.Body

end
-- ==== Proof.Blocks.lean ====
/-
  The blocks the grid hands to a point, read at one entry of the arrays they are cut from.

  The grid is 16 rows of 8 points; point t sits in row t / 8 at position t % 8. At point t the input block is rows
  (t / 8) · 1024 … of the input and columns (t % 8) · 512 … of it; the scale and shift blocks are columns
  (t % 8) · 512 … of their one row; the weight block is rows (t % 8) · 512 … of the weights, all 1024 columns.
  The summand of the whole product at a row, a contracted position and a column is named here over these arrays.
-/
import proofs.«119042_j39324720562890_1_alg».proof.Proof.Gen.KernelIdeal.Frame
import Idealize.ShloMosaic.Lib.Pipeline.Value
import Idealize.ShloMosaic.Lib.ValueIdx

noncomputable section

namespace Cert.KernelIdeal.Body

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- The block index of every window at every point, decided over the 128 points. -/
theorem block_index : ∀ t : Fin cfg0.N,
    win0_0.index t (0 : Fin 2) = t.val / 8 ∧ win0_0.index t (1 : Fin 2) = t.val % 8
    ∧ win0_1.index t (0 : Fin 2) = 0 ∧ win0_1.index t (1 : Fin 2) = t.val % 8
    ∧ win0_2.index t (0 : Fin 2) = 0 ∧ win0_2.index t (1 : Fin 2) = t.val % 8
    ∧ win0_3.index t (0 : Fin 2) = t.val % 8 ∧ win0_3.index t (1 : Fin 2) = 0
    ∧ win0_4.index t (0 : Fin 2) = t.val / 8 ∧ win0_4.index t (1 : Fin 2) = 0 :=
  (by decide +kernel : ∀ t : Fin grid0.N, _)

/-- The input block at (p, j). -/
theorem input_block (c : Dev nD) (t : Fin cfg0.N) (p : Fin 1024) (j : Fin 512)
    (hr : t.val / 8 * 1024 + p.val < 16384) (hk : t.val % 8 * 512 + j.val < 4096) :
    (iblk m c 0 t : Vec Ideal S1024x512 .f32) (ix2 p j)
      = V m c main_arg0 (ix2 (⟨t.val / 8 * 1024 + p.val, hr⟩ : Fin 16384) (⟨t.val % 8 * 512 + j.val, hk⟩ : Fin 4096)) := by
  obtain ⟨e0, e1, -⟩ := block_index t
  show V m c main_arg0 (((cfg0.win 0).blk t).view.emb (ix2 p j)) = _
  refine congrArg (V m c main_arg0) (funext fun a => Fin.ext ?_)
  match a with
  | ⟨0, _⟩ => show win0_0.index t (0 : Fin 2) * 1024 + 1 * p.val = t.val / 8 * 1024 + p.val; rw [e0]; omega
  | ⟨1, _⟩ => show win0_0.index t (1 : Fin 2) * 512 + 1 * j.val = t.val % 8 * 512 + j.val; rw [e1]; omega

/-- The scale block at (0, j). -/
theorem scale_block (c : Dev nD) (t : Fin cfg0.N) (j : Fin 512) (hk : t.val % 8 * 512 + j.val < 4096) :
    (iblk m c 1 t : Vec Ideal S1x512 .f32) (ix2 (0 : Fin 1) j)
      = V m c main_v20 (ix2 (0 : Fin 1) (⟨t.val % 8 * 512 + j.val, hk⟩ : Fin 4096)) := by
  obtain ⟨-, -, e0, e1, -⟩ := block_index t
  show V m c main_v20 (((cfg0.win 1).blk t).view.emb (ix2 (0 : Fin 1) j)) = _
  refine congrArg (V m c main_v20) (funext fun a => Fin.ext ?_)
  match a with
  | ⟨0, _⟩ => show win0_1.index t (0 : Fin 2) * 1 + 1 * (0 : Fin 1).val = (0 : Fin 1).val; rw [e0]; rfl
  | ⟨1, _⟩ => show win0_1.index t (1 : Fin 2) * 512 + 1 * j.val = t.val % 8 * 512 + j.val; rw [e1]; omega

/-- The shift block at (0, j). -/
theorem shift_block (c : Dev nD) (t : Fin cfg0.N) (j : Fin 512) (hk : t.val % 8 * 512 + j.val < 4096) :
    (iblk m c 2 t : Vec Ideal S1x512 .f32) (ix2 (0 : Fin 1) j)
      = V m c main_v23 (ix2 (0 : Fin 1) (⟨t.val % 8 * 512 + j.val, hk⟩ : Fin 4096)) := by
  obtain ⟨-, -, -, -, e0, e1, -⟩ := block_index t
  show V m c main_v23 (((cfg0.win 2).blk t).view.emb (ix2 (0 : Fin 1) j)) = _
  refine congrArg (V m c main_v23) (funext fun a => Fin.ext ?_)
  match a with
  | ⟨0, _⟩ => show win0_2.index t (0 : Fin 2) * 1 + 1 * (0 : Fin 1).val = (0 : Fin 1).val; rw [e0]; rfl
  | ⟨1, _⟩ => show win0_2.index t (1 : Fin 2) * 512 + 1 * j.val = t.val % 8 * 512 + j.val; rw [e1]; omega

/-- The weight block at (j, q). -/
theorem weight_block (c : Dev nD) (t : Fin cfg0.N) (j : Fin 512) (q : Fin 1024) (hk : t.val % 8 * 512 + j.val < 4096) :
    (iblk m c 3 t : Vec Ideal S512x1024 .bf16) (ix2 j q)
      = V m c main_v15 (ix2 (⟨t.val % 8 * 512 + j.val, hk⟩ : Fin 4096) q) := by
  obtain ⟨-, -, -, -, -, -, e0, e1, -⟩ := block_index t
  show V m c main_v15 (((cfg0.win 3).blk t).view.emb (ix2 j q)) = _
  refine congrArg (V m c main_v15) (funext fun a => Fin.ext ?_)
  match a with
  | ⟨0, _⟩ => show win0_3.index t (0 : Fin 2) * 512 + 1 * j.val = t.val % 8 * 512 + j.val; rw [e0]; omega
  | ⟨1, _⟩ => show win0_3.index t (1 : Fin 2) * 1024 + 1 * q.val = q.val; rw [e1]; omega

/-- An array of extended reals read at an index. -/
abbrev rd {S : Shape} (f : S.Idx → EReal) (i : S.Idx) : EReal := f i

/-- The summand of the product at row r, contracted position n, column q, over the arrays as the region finds
    them; zero outside the arrays, so that rows and positions can be plain natural numbers. -/
def term (c : Dev nD) (q : Fin 1024) (r n : ℕ) : EReal :=
  if h : r < 16384 ∧ n < 4096 then
    (rd (S := S16384x4096) (V m c main_arg0) (ix2 (⟨r, h.1⟩ : Fin 16384) (⟨n, h.2⟩ : Fin 4096))
        * rd (S := S1x4096) (V m c main_v20) (ix2 (0 : Fin 1) (⟨n, h.2⟩ : Fin 4096))
      + rd (S := S1x4096) (V m c main_v23) (ix2 (0 : Fin 1) (⟨n, h.2⟩ : Fin 4096)))
      * rd (S := S4096x1024) (V m c main_v15) (ix2 (⟨n, h.2⟩ : Fin 4096) q)
  else 0

end Cert.KernelIdeal.Body

end
-- ==== Proof.BnLaw.lean ====
/-
  The arithmetic behind a batch-norm folded into a scale and a shift, on the extended reals.

  With s = γ · rsqrt (v + ε), normalising first, (x - μ) · s + β, and the folded form x · s + (β - μ · s) are the
  same number as soon as x, μ, s, β are real numbers: the law is distributivity, which fails at the infinities, so the
  reals are needed. For s to be real it is enough that γ is real and v + ε is a positive real, and v ≥ 0 with ε > 0
  gives that: rsqrt of a positive real is the real 1 / √(v + ε). The word of ε is a positive real.

  A sum over the first a + b natural numbers is the sum over the first a plus the sum over the next b; this is the
  step by which partial products over consecutive stretches of the contracted axis add up to the whole product.
-/
import Idealize.ShloMosaic.PureOps.Ideal
import Idealize.ShloMosaic.PureOps.Ideal.Laws

noncomputable section

open scoped BigOperators

namespace Cert.BnLaw

open Idealize.ShloMosaic

/-- Normalise-then-scale equals scale-then-shift, on real numbers. -/
theorem affine_real (x μ s β : ℝ) :
    ((x : EReal) - (μ : EReal)) * (s : EReal) + (β : EReal)
      = (x : EReal) * (s : EReal) + ((β : EReal) - (μ : EReal) * (s : EReal)) := by
  have h : (x - μ) * s + β = x * s + (β - μ * s) := by ring
  exact_mod_cast h

/-- rsqrt of v + ε is a real number when v ≥ 0 and ε > 0. -/
theorem rsqrt_real (v e : ℝ) (hv : 0 ≤ v) (he : 0 < e) :
    ∃ r : ℝ, Ideal.rsqrt ((v : EReal) + (e : EReal)) = (r : EReal) := by
  have h : 0 < v + e := by linarith
  refine ⟨(Real.sqrt (v + e))⁻¹, ?_⟩
  rw [← EReal.coe_add, Ideal.rsqrt_coe, if_neg (not_lt.2 h.le), if_neg h.ne']

/-- The f32 word of 1e-3 denotes a positive real number. -/
theorem eps_pos : ∃ e : ℝ, 0 < e ∧ Ideal.ofBits .f32 0x3A83126F#32 = (e : EReal) := by
  refine ⟨_, ?_, by simp [Ideal.ofBits, Ideal.ieee]; rfl⟩
  positivity

/-- A product of two reals is a real. -/
theorem mul_real (a b : ℝ) : (a : EReal) * (b : EReal) = ((a * b : ℝ) : EReal) := (EReal.coe_mul a b).symm

/-- The folded form equals the normalise-first form, at real x, μ, γ, β, a nonnegative real variance v and a
    positive real ε: then s = γ · rsqrt (v + ε) is real and the law is the one above. -/
theorem folded_eq (x μ γ β v e : EReal) (hx : ∃ r : ℝ, x = (r : EReal)) (hμ : ∃ r : ℝ, μ = (r : EReal))
    (hγ : ∃ r : ℝ, γ = (r : EReal)) (hβ : ∃ r : ℝ, β = (r : EReal)) (hv : ∃ r : ℝ, 0 ≤ r ∧ v = (r : EReal))
    (he : ∃ r : ℝ, 0 < r ∧ e = (r : EReal)) :
    x * (γ * Ideal.rsqrt (v + e)) + (β - μ * (γ * Ideal.rsqrt (v + e)))
      = (x - μ) * (γ * Ideal.rsqrt (v + e)) + β := by
  obtain ⟨x, rfl⟩ := hx
  obtain ⟨μ, rfl⟩ := hμ
  obtain ⟨γ, rfl⟩ := hγ
  obtain ⟨β, rfl⟩ := hβ
  obtain ⟨v, hv, rfl⟩ := hv
  obtain ⟨e, he, rfl⟩ := he
  obtain ⟨s, hs⟩ := rsqrt_real v e hv he
  rw [hs, mul_real]
  exact (affine_real x μ (γ * s) β).symm

/-- The first a + b terms: the first a, then the next b. -/
theorem sum_range_add' {M : Type*} [AddCommMonoid M] (f : ℕ → M) (a b : ℕ) :
    ∑ n ∈ Finset.range a, f n + ∑ n ∈ Finset.range b, f (a + n) = ∑ n ∈ Finset.range (a + b), f n :=
  (Finset.sum_range_add f a b).symm

end Cert.BnLaw

end
-- ==== Proof.Chain.lean ====
/-
  The kernel's result array, entry by entry.

  Along a row of the grid the carried 1024 × 1024 block is a running sum over the contracted axis: after the point at
  position k of the row it holds, at (p, q), the sum over the first (k + 1) · 512 contracted positions of the
  product's summand at the row's p-th input row and column q — the reset gives zero, and each point adds its own
  512 positions to what the point before left. At the last position, k = 7, all 4096 positions are in, and the
  output block written back there is the whole product on the row's 1024 input rows. The sixteen rows of the grid
  write back sixteen blocks that tile the result, so the result array is the whole product everywhere.
-/
import proofs.«119042_j39324720562890_1_alg».proof.Proof.Payload
import proofs.«119042_j39324720562890_1_alg».proof.Proof.Pieces
import proofs.«119042_j39324720562890_1_alg».proof.Proof.Blocks
import proofs.«119042_j39324720562890_1_alg».proof.Proof.BnLaw
import proofs.«119042_j39324720562890_1_alg».proof.Proof.Gen.KernelIdeal.Value
import Idealize.ShloMosaic.Lib.Pipeline.Value
import Idealize.ShloMosaic.Lib.ValueIdx

noncomputable section

open scoped BigOperators

namespace Cert.KernelIdeal.Body

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## One point's contribution -/

/-- The step's j-th summand at (p, q) at point t is the product's summand at the point's row and position. -/
theorem step_term (c : Dev nD) (t : Fin cfg0.N) (p q : Fin 1024) (j : Fin 512) :
    summand (iblk m c 0 t) (iblk m c 1 t) (iblk m c 2 t) (iblk m c 3 t) p q j = term m c q (t.val / 8 * 1024 + p.val) (t.val % 8 * 512 + j.val) := by
  have hN : t.val < 128 := lt_of_lt_of_eq t.isLt (show cfg0.N = 128 from N_0)
  have hr : t.val / 8 * 1024 + p.val < 16384 ∧ t.val % 8 * 512 + j.val < 4096 := by
    have := p.isLt; have := j.isLt; omega
  unfold summand term
  rw [dif_pos hr, input_block m c t p j hr.1 hr.2, scale_block m c t j hr.2, shift_block m c t j hr.2,
    weight_block m c t j q hr.2]

/-- The step at point t over a carried block: what it held at (p, q) plus the point's 512 positions. -/
theorem step_sum (c : Dev nD) (t : Fin cfg0.N) (acc : Vec Ideal S1024x1024 .f32) (p q : Fin 1024) :
    k0_pay2 (F := Ideal) (iblk m c 0 t) (iblk m c 1 t) (iblk m c 2 t) acc (iblk m c 3 t) (ix2 p q)
      = acc (ix2 p q) + ∑ n ∈ Finset.range 512, term m c q (t.val / 8 * 1024 + p.val) (t.val % 8 * 512 + n) := by
  refine (step_apply (iblk m c 0 t) (iblk m c 1 t) (iblk m c 2 t) acc (iblk m c 3 t) p q).trans ?_
  refine congrArg (acc (ix2 p q) + ·) ?_
  refine (Finset.sum_congr rfl fun j _ => step_term m c t p q j).trans ?_
  exact Fin.sum_univ_eq_sum_range (fun n => term m c q (t.val / 8 * 1024 + p.val) (t.val % 8 * 512 + n)) 512

/-! ## The carried block, case by case -/

theorem carried_at_A (c : Dev nD) (t : Fin cfg0.N) (h0 : t.val % 8 = 0) (h1 : ¬t.val % 8 = 7) :
    (outsAt0 m c t.val t.isLt).2
      = k0_pay2 (iblk m c 0 t) (iblk m c 1 t) (iblk m c 2 t) (k0_pay1 (F := Ideal)) (iblk m c 3 t) := by
  refine (congrArg Prod.snd (outsAt0_A m c t h0 h1)).trans ?_
  dsimp only
  exact carried_A (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)

theorem carried_at_B (c : Dev nD) (t : Fin cfg0.N) (h0 : ¬t.val % 8 = 0) (h1 : ¬t.val % 8 = 7) :
    (outsAt0 m c t.val t.isLt).2
      = k0_pay2 (iblk m c 0 t) (iblk m c 1 t) (iblk m c 2 t) (outsAt0 m c (t.val - 1) (Nat.lt_of_le_of_lt (Nat.sub_le _ _) t.isLt)).2 (iblk m c 3 t) := by
  refine (congrArg Prod.snd (outsAt0_B m c t h0 h1)).trans ?_
  dsimp only
  exact carried_B (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2

theorem carried_at_C (c : Dev nD) (t : Fin cfg0.N) (h0 : ¬t.val % 8 = 0) (h1 : t.val % 8 = 7) :
    (outsAt0 m c t.val t.isLt).2
      = k0_pay2 (iblk m c 0 t) (iblk m c 1 t) (iblk m c 2 t) (outsAt0 m c (t.val - 1) (Nat.lt_of_le_of_lt (Nat.sub_le _ _) t.isLt)).2 (iblk m c 3 t) := by
  refine (congrArg Prod.snd (outsAt0_C m c t h0 h1)).trans ?_
  dsimp only
  exact carried_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2

theorem output_at_C (c : Dev nD) (t : Fin cfg0.N) (h0 : ¬t.val % 8 = 0) (h1 : t.val % 8 = 7) :
    (outsAt0 m c t.val t.isLt).1
      = k0_pay2 (iblk m c 0 t) (iblk m c 1 t) (iblk m c 2 t) (outsAt0 m c (t.val - 1) (Nat.lt_of_le_of_lt (Nat.sub_le _ _) t.isLt)).2 (iblk m c 3 t) := by
  refine (congrArg Prod.fst (outsAt0_C m c t h0 h1)).trans ?_
  dsimp only
  exact output_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2

/-! ## The running sum -/

/-- The sum of the product's summands over the first k contracted positions. -/
def partialSum (c : Dev nD) (q : Fin 1024) (r k : ℕ) : EReal := ∑ n ∈ Finset.range k, term m c q r n

theorem partialSum_add (c : Dev nD) (q : Fin 1024) (r a b : ℕ) :
    partialSum m c q r a + ∑ n ∈ Finset.range b, term m c q r (a + n) = partialSum m c q r (a + b) :=
  Cert.BnLaw.sum_range_add' (term m c q r) a b

/-- One point: if the point before (in the same row of the grid) left the running sum, so does this one. -/
theorem carried_point (c : Dev nD) (t : Fin cfg0.N)
    (ih : ¬t.val % 8 = 0 → ∀ p q : Fin 1024,
      (outsAt0 m c (t.val - 1) (Nat.lt_of_le_of_lt (Nat.sub_le _ _) t.isLt)).2 (ix2 p q) = partialSum m c q ((t.val - 1) / 8 * 1024 + p.val) (((t.val - 1) % 8 + 1) * 512))
    (p q : Fin 1024) :
    (outsAt0 m c t.val t.isLt).2 (ix2 p q) = partialSum m c q (t.val / 8 * 1024 + p.val) ((t.val % 8 + 1) * 512) := by
  have hN : t.val < 128 := lt_of_lt_of_eq t.isLt (show cfg0.N = 128 from N_0)
  by_cases h0 : t.val % 8 = 0
  · have h1 : ¬t.val % 8 = 7 := by omega
    refine (congrFun (carried_at_A m c t h0 h1) (ix2 p q)).trans ?_
    refine (step_sum m c t (k0_pay1 (F := Ideal)) p q).trans ?_
    rewrite [reset_apply, zero_add, h0]
    have e : ∀ n : ℕ, 0 * 512 + n = n := fun n => by omega
    simp only [e]
    exact (congrArg (partialSum m c q (t.val / 8 * 1024 + p.val)) (by omega : (0 + 1) * 512 = 512)).symm
  · have hk : (t.val - 1) / 8 = t.val / 8 ∧ ((t.val - 1) % 8 + 1) * 512 = t.val % 8 * 512 := by omega
    have hs : (t.val % 8 + 1) * 512 = t.val % 8 * 512 + 512 := by omega
    have key : (outsAt0 m c (t.val - 1) (Nat.lt_of_le_of_lt (Nat.sub_le _ _) t.isLt)).2 (ix2 p q) + ∑ n ∈ Finset.range 512, term m c q (t.val / 8 * 1024 + p.val) (t.val % 8 * 512 + n)
        = partialSum m c q (t.val / 8 * 1024 + p.val) ((t.val % 8 + 1) * 512) := by
      rewrite [ih h0 p q, hk.1, hk.2, hs]
      exact partialSum_add m c q _ _ _
    by_cases h1 : t.val % 8 = 7
    · refine (congrFun (carried_at_C m c t h0 h1) (ix2 p q)).trans ?_
      exact (step_sum m c t _ p q).trans key
    · refine (congrFun (carried_at_B m c t h0 h1) (ix2 p q)).trans ?_
      exact (step_sum m c t _ p q).trans key

/-- After every point the carried block holds the running sum of its row of the grid. -/
theorem carried_eq (c : Dev nD) : ∀ (n : ℕ) (hn : n < cfg0.N) (p q : Fin 1024),
    (outsAt0 m c n hn).2 (ix2 p q) = partialSum m c q (n / 8 * 1024 + p.val) ((n % 8 + 1) * 512) := by
  intro n
  induction n with
  | zero => exact fun hn p q => carried_point m c ⟨0, hn⟩ (fun h => absurd rfl h) p q
  | succ n ihn =>
    intro hn p q
    exact carried_point m c ⟨n + 1, hn⟩ (fun _ p q => ihn (Nat.lt_of_succ_lt hn) p q) p q

/-! ## The result array -/

/-- The whole product at row r and column q: all 4096 contracted positions. -/
def whole (c : Dev nD) (q : Fin 1024) (r : ℕ) : EReal := partialSum m c q r 4096

/-- The result: the whole product at every entry. -/
def product (c : Dev nD) : S16384x1024.Idx → EReal :=
  fun i => whole m c ⟨(i 1).val, idx2_lt1 i⟩ (i 0).val

theorem product_at (c : Dev nD) (i : S16384x1024.Idx) (q : Fin 1024) (r : ℕ) (h0 : (i 0).val = r) (h1 : (i 1).val = q.val) :
    product m c i = whole m c q r := by
  have e : (⟨(i 1).val, idx2_lt1 i⟩ : Fin 1024) = q := Fin.ext h1
  unfold product
  rewrite [e, h0]
  rfl

/-- What the last point of a row of the grid writes back is its block of the whole product. -/
theorem flushed_eq (c : Dev nD) (t : Fin cfg0.N) (hf : (cfg0.win 4).flush t = true) :
    (dats m 0 c).flushed 4 t = ((cfg0.win 4).blk t).view.read (Elt Ideal) (product m c) := by
  have hN : t.val < 128 := lt_of_lt_of_eq t.isLt (show cfg0.N = 128 from N_0)
  have h7 : t.val % 8 = 7 := (flush0_4 t).mp hf
  have h0 : ¬t.val % 8 = 0 := by omega
  obtain ⟨-, -, -, -, -, -, -, -, e0, e1⟩ := block_index t
  rewrite [Cert.KernelIdeal.Value.flushed4]
  funext y
  obtain ⟨p, q, rfl⟩ : ∃ (p q : Fin 1024), y = ix2 p q := ⟨y 0, y 1, eq_ix2 y⟩
  show (outsAt0 m c t.val t.isLt).1 (ix2 p q) = product m c (((cfg0.win 4).blk t).view.emb (ix2 p q))
  have er : ((((cfg0.win 4).blk t).view.emb (ix2 p q)) 0).val = t.val / 8 * 1024 + p.val := by
    show win0_4.index t (0 : Fin 2) * 1024 + 1 * p.val = _
    rw [e0]; omega
  have ec : ((((cfg0.win 4).blk t).view.emb (ix2 p q)) 1).val = q.val := by
    show win0_4.index t (1 : Fin 2) * 1024 + 1 * q.val = _
    rw [e1]; omega
  rewrite [product_at m c _ q _ er ec]
  refine (congrFun (output_at_C m c t h0 h7) (ix2 p q)).trans ?_
  refine (step_sum m c t _ p q).trans ?_
  have hprev : (t.val - 1) < cfg0.N := Nat.lt_of_le_of_lt (Nat.sub_le _ _) t.isLt
  rewrite [carried_eq m c (t.val - 1) hprev p q]
  have hk : (t.val - 1) / 8 = t.val / 8 ∧ ((t.val - 1) % 8 + 1) * 512 = t.val % 8 * 512 := by omega
  have hs : t.val % 8 * 512 + 512 = 4096 := by omega
  rewrite [hk.1, hk.2]
  unfold whole
  rewrite [← hs]
  exact partialSum_add m c q _ _ _

/-- An entry of the result is in point t's block iff each coordinate is in the block's range. -/
theorem mem_block (t : Fin cfg0.N) (i : S16384x1024.Idx) :
    i ∈ ((cfg0.win 4).blk t).view.set ↔ ∀ a : Fin 2, win0_4.index t a * S1024x1024.size a ≤ (i a).val
      ∧ (i a).val < win0_4.index t a * S1024x1024.size a + S1024x1024.size a := by
  show i ∈ ((View.whole main_v24).slice (win0_4.rect t)).set ↔ _
  rw [View.set_slice_whole, Rect.mem_set_unit]
  exact Iff.rfl

/-- Every entry of the result lies in the block written back at the end of its row of the grid. -/
theorem covered (i : S16384x1024.Idx) :
    ∃ t : Fin cfg0.N, (cfg0.win 4).flush t = true ∧ i ∈ ((cfg0.win 4).blk t).view.set := by
  have hi0 : (i 0).val < 16384 := idx2_lt0 i
  have hi1 : (i 1).val < 1024 := idx2_lt1 i
  have hN : cfg0.N = 128 := N_0
  have ht : (i 0).val / 1024 * 8 + 7 < cfg0.N := by rw [hN]; omega
  refine ⟨⟨(i 0).val / 1024 * 8 + 7, ht⟩, (flush0_4 _).mpr (by show ((i 0).val / 1024 * 8 + 7) % 8 = 7; omega), ?_⟩
  obtain ⟨-, -, -, -, -, -, -, -, e0, e1⟩ := block_index ⟨(i 0).val / 1024 * 8 + 7, ht⟩
  rw [mem_block]
  intro a
  match a with
  | ⟨0, _⟩ =>
    show win0_4.index ⟨(i 0).val / 1024 * 8 + 7, ht⟩ (0 : Fin 2) * 1024 ≤ (i 0).val
      ∧ (i 0).val < win0_4.index ⟨(i 0).val / 1024 * 8 + 7, ht⟩ (0 : Fin 2) * 1024 + 1024
    rw [e0]; show ((i 0).val / 1024 * 8 + 7) / 8 * 1024 ≤ (i 0).val ∧ (i 0).val < ((i 0).val / 1024 * 8 + 7) / 8 * 1024 + 1024
    omega
  | ⟨1, _⟩ =>
    show win0_4.index ⟨(i 0).val / 1024 * 8 + 7, ht⟩ (1 : Fin 2) * 1024 ≤ (i 1).val
      ∧ (i 1).val < win0_4.index ⟨(i 0).val / 1024 * 8 + 7, ht⟩ (1 : Fin 2) * 1024 + 1024
    rw [e1]; omega

/-- The result array after the run is the whole product. -/
theorem final (c : Dev nD) : (dats m 0 c).arrAt 4 cfg0.N = product m c :=
  (dats m 0 c).arrAt_eq_of_cover 4 (product m c) (flushed_eq m c) covered

/-- The kernel's run: the result array at the whole product, the arguments unchanged. -/
theorem run : θ_run defs (onTc (τ := τ) (main (F := Ideal))) ⟨m, fun _ => 0, ρ⟩ fun r => ∀ c : Dev nD,
      r.2.mem ((c : Thread nD τ).loc main_v24) = product m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩)
    (Cert.KernelIdeal.Value.run_blocks m ρ)

end Cert.KernelIdeal.Body

end
-- ==== Proof.HostSide.lean ====
/-
  The three arrays the host prepares for the kernel, as functions of the arguments.

  The scale is s = γ · rsqrt (v + ε), laid out as one row; the shift is β - μ · s, laid out as one row; the weights
  are the accumulating scatter of the values at (row, column) into a zero matrix, narrowed to bf16 — the identity on
  extended reals. Each is read here at one entry.
-/
import proofs.«119042_j39324720562890_1_alg».proof.Proof.Gen.KernelIdeal.Frame.Runs
import Idealize.ShloMosaic.Lib.StableHlo.Run
import Idealize.ShloMosaic.Lib.Tactic
import Idealize.ShloMosaic.Lib.ValueIdx
import Idealize.ShloMosaic.Lib.ValueLayout

noncomputable section

namespace Cert.KernelIdeal.Body

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- γ · rsqrt (v + ε), entry by entry. -/
def invStd (γ v : FVec Ideal S4096 .f32) : FVec Ideal S4096 .f32 :=
  mulf γ (Host.rsqrt (F := Ideal) (addf v (broadcastInDim S4096 ![] bcast_S_S4096 (constant (F := Ideal) S_ .f32 0x3A83126F#32))))

/-- β - μ · s, entry by entry. -/
def foldedShift (β μ s : FVec Ideal S4096 .f32) : FVec Ideal S4096 .f32 := subf β (mulf μ s)

/-- The dense weights: the values scattered, accumulating, at (row, column) into a zero matrix; a negative row or
    column index counts from the end. -/
def weights (u : FVec Ideal S262144 .f32) (rows cols : IVec S262144 32) : FVec Ideal S4096x1024 .f32 :=
  Host.scatterAdd (F := Ideal) scatter_S4096x1024_S262144x2_S262144_n_01_01_1
    (broadcastInDim S4096x1024 ![] bcast_S_S4096x1024 (constant (F := Ideal) S_ .f32 0x00000000#32))
    (concatenate S262144x2 1
      [⟨S262144x1, broadcastInDim S262144x1 ![0] bcast_S262144_S262144x1_0
          (select (cmpi .slt rows (broadcastInDim S262144 ![] bcast_S_S262144 (constantI S_ 32 0#32)))
            (addi rows (broadcastInDim S262144 ![] bcast_S_S262144 (constantI S_ 32 4096#32))) rows)⟩,
       ⟨S262144x1, broadcastInDim S262144x1 ![0] bcast_S262144_S262144x1_0
          (select (cmpi .slt cols (broadcastInDim S262144 ![] bcast_S_S262144 (constantI S_ 32 0#32)))
            (addi cols (broadcastInDim S262144 ![] bcast_S_S262144 (constantI S_ 32 1024#32))) cols)⟩]
      concatenates_S262144x1_S262144x1_S262144x2_d1)
    u

/-- The scale row as the region finds it. -/
theorem scale_eq (c : Dev nD) :
    (V m c main_v20 : S1x4096.Idx → EReal)
      = shapeCast S1x4096 (invStd (m ((c : Thread nD τ).loc main_arg2)) (m ((c : Thread nD τ).loc main_arg5))) shapeCasts_S4096_S1x4096 := by
  dsimp only [V, hostOps0]; after_results_simp <;> rfl

set_option maxHeartbeats 2000000 in
/-- The shift row as the region finds it. -/
theorem shift_eq (c : Dev nD) :
    (V m c main_v23 : S1x4096.Idx → EReal)
      = shapeCast S1x4096 (foldedShift (m ((c : Thread nD τ).loc main_arg3)) (m ((c : Thread nD τ).loc main_arg4))
          (invStd (m ((c : Thread nD τ).loc main_arg2)) (m ((c : Thread nD τ).loc main_arg5)))) shapeCasts_S4096_S1x4096 := by
  dsimp only [V, hostOps0]; after_results_simp <;> rfl

set_option maxHeartbeats 2000000 in
/-- The weights as the region finds them. -/
theorem weights_eq (c : Dev nD) :
    (V m c main_v15 : S4096x1024.Idx → EReal)
      = truncf .bf16 (weights (m ((c : Thread nD τ).loc main_arg1)) (m ((c : Thread nD τ).loc main_arg6)) (m ((c : Thread nD τ).loc main_arg7))) bitsLt_bf16_f32 := by
  dsimp only [V, hostOps0]; after_results_simp <;> rfl

/-- s at entry n. -/
theorem invStd_apply (γ v : FVec Ideal S4096 .f32) (n : Fin 4096) :
    invStd γ v (ix1 n) = γ (ix1 n) * Ideal.rsqrt (v (ix1 n) + Ideal.ofBits .f32 0x3A83126F#32) := rfl

/-- The scale row at (0, n). -/
theorem scale_apply (c : Dev nD) (n : Fin 4096) :
    (V m c main_v20 : S1x4096.Idx → EReal) (ix2 (0 : Fin 1) n)
      = invStd (m ((c : Thread nD τ).loc main_arg2)) (m ((c : Thread nD τ).loc main_arg5)) (ix1 n) := by
  rw [scale_eq]
  exact shapeCast_a_1a_apply _ _ (0 : Fin 1) n

/-- The folded shift at entry n. -/
theorem foldedShift_apply (β μ s : FVec Ideal S4096 .f32) (n : Fin 4096) :
    foldedShift β μ s (ix1 n) = β (ix1 n) - μ (ix1 n) * s (ix1 n) := rfl

/-- The shift row at (0, n). -/
theorem shift_apply (c : Dev nD) (n : Fin 4096) :
    (V m c main_v23 : S1x4096.Idx → EReal) (ix2 (0 : Fin 1) n)
      = foldedShift (m ((c : Thread nD τ).loc main_arg3)) (m ((c : Thread nD τ).loc main_arg4)) (invStd (m ((c : Thread nD τ).loc main_arg2)) (m ((c : Thread nD τ).loc main_arg5))) (ix1 n) := by
  rw [shift_eq]
  exact shapeCast_a_1a_apply _ _ (0 : Fin 1) n

/-- The weights at (n, q). -/
theorem weights_apply (c : Dev nD) (n : Fin 4096) (q : Fin 1024) :
    (V m c main_v15 : S4096x1024.Idx → EReal) (ix2 n q)
      = weights (m ((c : Thread nD τ).loc main_arg1)) (m ((c : Thread nD τ).loc main_arg6)) (m ((c : Thread nD τ).loc main_arg7)) (ix2 n q) := by
  rw [weights_eq]
  rfl

end Cert.KernelIdeal.Body

end
-- ==== Proof.Bridge.lean ====
/-
  The kernel's result is the reference's result.

  The reference normalises first, h = (x - μ) · s + β with s = γ · rsqrt (v + ε), then takes the product h · W with
  the scattered weights W. The kernel's result, entry (r, q), is the sum over the contracted positions k of
  (x (r, k) · s (k) + (β (k) - μ (k) · s (k))) · W (k, q) with the same s and the same W. Term by term the two agree
  as soon as x, μ, γ, β are real and the variance is a nonnegative real — the law of the folded batch-norm — and the
  sums are then equal.
-/
import proofs.«119042_j39324720562890_1_alg».proof.Proof.Chain
import proofs.«119042_j39324720562890_1_alg».proof.Proof.HostSide
import proofs.«119042_j39324720562890_1_alg».proof.Proof.BnLaw
import proofs.«119042_j39324720562890_1_alg».proof.Proof.Gen.ReferenceIdeal.Read

noncomputable section

open scoped BigOperators

namespace Cert.Bridge

open Cert.KernelIdeal Cert.KernelIdeal.Gen Cert.KernelIdeal.Body
open Idealize.ShloMosaic Idealize.ShloMosaic.TcCoe Idealize.SL.Sem Idealize.ShloMosaic.ValueIdx

variable (m : (ℓ : Loc nD τ sig) → Buf (Elt Ideal) ℓ)

/-- The arguments as the kernel's program finds them at launch. -/
abbrev aX (c : Dev nD) : FVec Ideal S16384x4096 .f32 := m ((c : Thread nD τ).loc main_arg0)
abbrev aU (c : Dev nD) : FVec Ideal S262144 .f32 := m ((c : Thread nD τ).loc main_arg1)
abbrev aG (c : Dev nD) : FVec Ideal S4096 .f32 := m ((c : Thread nD τ).loc main_arg2)
abbrev aB (c : Dev nD) : FVec Ideal S4096 .f32 := m ((c : Thread nD τ).loc main_arg3)
abbrev aM (c : Dev nD) : FVec Ideal S4096 .f32 := m ((c : Thread nD τ).loc main_arg4)
abbrev aV (c : Dev nD) : FVec Ideal S4096 .f32 := m ((c : Thread nD τ).loc main_arg5)
abbrev aR (c : Dev nD) : IVec S262144 32 := m ((c : Thread nD τ).loc main_arg6)
abbrev aC (c : Dev nD) : IVec S262144 32 := m ((c : Thread nD τ).loc main_arg7)

/-- The product's summand over the arguments: the folded batch-norm of the input times the weight. -/
theorem term_at (c : Dev nD) (q : Fin 1024) (r : Fin 16384) (k : Fin 4096) :
    term m c q r.val k.val
      = (aX m c (ix2 r k) * invStd (aG m c) (aV m c) (ix1 k)
          + foldedShift (aB m c) (aM m c) (invStd (aG m c) (aV m c)) (ix1 k))
        * weights (aU m c) (aR m c) (aC m c) (ix2 k q) := by
  unfold term
  rewrite [dif_pos ⟨r.isLt, k.isLt⟩]
  simp only [rd, Fin.eta]
  rewrite [V_main_arg0 m c, scale_apply m c k, shift_apply m c k, weights_apply m c k q]
  rfl

/-- The reference's contracted indices are (r, k) and (k, q). -/
theorem lidx_eq (r : Fin 16384) (q : Fin 1024) (k : Fin 4096) :
    Cert.ReferenceIdeal.Read.lidx_main_v28 (ix2 r q) k = ix2 r k :=
  funext fun a => by match a with | ⟨0, _⟩ => rfl | ⟨1, _⟩ => rfl

theorem ridx_eq (r : Fin 16384) (q : Fin 1024) (k : Fin 4096) :
    Cert.ReferenceIdeal.Read.ridx_main_v28 (ix2 r q) k = ix2 k q :=
  funext fun a => by match a with | ⟨0, _⟩ => rfl | ⟨1, _⟩ => rfl

/-- The reference's normalised input at (r, k). -/
theorem normalised_at (x0 : FVec Ideal S16384x4096 .f32) (x2 x3 x4 x5 : FVec Ideal S4096 .f32) (r : Fin 16384) (k : Fin 4096) :
    Cert.ReferenceIdeal.Read.val_main_v12 (F := Ideal) x0 x2 x3 x4 x5 (ix2 r k)
      = (x0 (ix2 r k) - x4 (ix1 k)) * (x2 (ix1 k) * Ideal.rsqrt (x5 (ix1 k) + Ideal.ofBits .f32 0x3A83126F#32)) + x3 (ix1 k) := by
  have e1 : Cert.ReferenceIdeal.Read.idx_main_v0 (Cert.ReferenceIdeal.Read.idx_main_v1 (ix2 r k)) = ix1 k :=
    funext fun a => by match a with | ⟨0, _⟩ => rfl
  have e2 : Cert.ReferenceIdeal.Read.idx_main_v7 (Cert.ReferenceIdeal.Read.idx_main_v8 (ix2 r k)) = ix1 k :=
    funext fun a => by match a with | ⟨0, _⟩ => rfl
  have e3 : Cert.ReferenceIdeal.Read.idx_main_v10 (Cert.ReferenceIdeal.Read.idx_main_v11 (ix2 r k)) = ix1 k :=
    funext fun a => by match a with | ⟨0, _⟩ => rfl
  rewrite [Cert.ReferenceIdeal.Read.val_main_v12_apply, Cert.ReferenceIdeal.Read.val_main_v9_apply, Cert.ReferenceIdeal.Read.val_main_v2_apply, Cert.ReferenceIdeal.Read.val_main_v1_apply,
    Cert.ReferenceIdeal.Read.val_main_v0_apply, Cert.ReferenceIdeal.Read.val_main_v8_apply, Cert.ReferenceIdeal.Read.val_main_v7_apply, Cert.ReferenceIdeal.Read.val_main_v6_apply,
    Cert.ReferenceIdeal.Read.val_main_v5_apply, Cert.ReferenceIdeal.Read.val_main_v4_apply, Cert.ReferenceIdeal.Read.val_main_v3_apply, Cert.ReferenceIdeal.Read.val_main_cst_apply,
    Cert.ReferenceIdeal.Read.val_main_v11_apply, Cert.ReferenceIdeal.Read.val_main_v10_apply, e1, e2, e3]
  rfl

/-- The reference's weights are the kernel's weights. -/
theorem weights_ref (x1 : FVec Ideal S262144 .f32) (x6 x7 : IVec S262144 32) :
    Cert.ReferenceIdeal.Read.val_main_v27 (F := Ideal) x1 x6 x7 = weights x1 x6 x7 := rfl

/-- One summand: the kernel's equals the reference's, at real inputs with a nonnegative variance. -/
theorem term_eq (c : Dev nD)
    (hx : ∀ i, ∃ r : ℝ, aX m c i = (r : EReal)) (hg : ∀ i, ∃ r : ℝ, aG m c i = (r : EReal))
    (hb : ∀ i, ∃ r : ℝ, aB m c i = (r : EReal)) (hm : ∀ i, ∃ r : ℝ, aM m c i = (r : EReal))
    (hv : ∀ i, ∃ r : ℝ, 0 ≤ r ∧ aV m c i = (r : EReal))
    (r : Fin 16384) (q : Fin 1024) (k : Fin 4096) :
    term m c q r.val k.val
      = Cert.ReferenceIdeal.Read.val_main_v12 (F := Ideal) (aX m c) (aG m c) (aB m c) (aM m c) (aV m c) (Cert.ReferenceIdeal.Read.lidx_main_v28 (ix2 r q) k)
        * Cert.ReferenceIdeal.Read.val_main_v27 (F := Ideal) (aU m c) (aR m c) (aC m c) (Cert.ReferenceIdeal.Read.ridx_main_v28 (ix2 r q) k) := by
  rewrite [term_at m c q r k, lidx_eq r q k, ridx_eq r q k, normalised_at, weights_ref, foldedShift_apply, invStd_apply]
  exact congrArg (· * weights (aU m c) (aR m c) (aC m c) (ix2 k q))
    (Cert.BnLaw.folded_eq _ _ _ _ _ _ (hx _) (hm _) (hg _) (hb _) (hv _) Cert.BnLaw.eps_pos)

/-- The kernel's result function is the reference's stage for its result. -/
theorem product_eq_reference (c : Dev nD)
    (hx : ∀ i, ∃ r : ℝ, aX m c i = (r : EReal)) (hg : ∀ i, ∃ r : ℝ, aG m c i = (r : EReal))
    (hb : ∀ i, ∃ r : ℝ, aB m c i = (r : EReal)) (hm : ∀ i, ∃ r : ℝ, aM m c i = (r : EReal))
    (hv : ∀ i, ∃ r : ℝ, 0 ≤ r ∧ aV m c i = (r : EReal)) :
    product m c
      = Cert.ReferenceIdeal.Read.val_main_v28 (F := Ideal) (aX m c) (aU m c) (aG m c) (aB m c) (aM m c) (aV m c) (aR m c) (aC m c) := by
  funext i
  obtain ⟨r, q, rfl⟩ : ∃ (r : Fin 16384) (q : Fin 1024), i = ix2 r q := ⟨i 0, i 1, eq_ix2 i⟩
  rewrite [product_at m c (ix2 r q) q r.val rfl rfl, Cert.ReferenceIdeal.Read.val_main_v28_apply]
  unfold whole partialSum
  rewrite [← Fin.sum_univ_eq_sum_range (fun n => term m c q r.val n) 4096]
  exact Finset.sum_congr rfl fun k _ => term_eq m c hx hg hb hm hv r q k

end Cert.Bridge

end
-- ==== Proof.LibSingletonSoftmax.lean ====
/-
  The softmax over ONE element, on the extended reals. Over an axis of extent one, the softmax weight of a score `x` is
  `exp (x - max) / sum`, where `max` is the maximum of the one score `x` taken from minus infinity and `sum` is the sum
  of the one shifted exponential. At a FINITE score `x = r` the maximum is `r`, the shift `r - r` is `0`, its exponential
  is `1`, the sum is `1` and the quotient `1 / 1` is `1`: the weight is `1`. (At an infinite score the shift `x - x` is
  not `0`, which is why finiteness is needed.) With it: a maximum and a sum over an index set of one element, and the
  reading of "the absolute value is below plus infinity" as "is a real number".
-/
import Idealize.ShloMosaic.PureOps.Ideal
import Idealize.ShloMosaic.PureOps.Ideal.Laws

noncomputable section

namespace SingletonSoftmax

open Idealize.ShloMosaic

/-- The f32 word of minus infinity is the bottom of the extended reals. -/
theorem negInf_eq_bot : Ideal.ofBits .f32 0xFF800000#32 = ⊥ := by simp [Ideal.ofBits, Ideal.ieee]

/-- The exponential of a finite score shifted by itself is `1`. -/
theorem exp_sub_self (r : ℝ) : Ideal.exp ((r : EReal) - (r : EReal)) = 1 := by
  rw [← EReal.coe_sub, Ideal.exp_coe, sub_self, Real.exp_zero, EReal.coe_one]

/-- `1 / 1 = 1` for the division of the extended reals. -/
theorem div_one_one : Ideal.div 1 1 = 1 := by
  have h := Ideal.div_coe (y := (1 : ℝ)) one_ne_zero (1 : EReal)
  rw [EReal.coe_one] at h
  rw [h, one_mul, one_div, inv_one, EReal.coe_one]

/-- The maximum of one finite score, taken from minus infinity and then compared with minus infinity once more
    (the two steps a softmax's running maximum makes), is the score. -/
theorem max_single (r : ℝ) : max (⊥ : EReal) (max (r : EReal) ⊥) = r := by
  rw [max_bot_right, max_bot_left]

/-- THE WEIGHT OF A SINGLE FINITE SCORE IS ONE, in the form where the sum of the one shifted exponential starts from
    nothing. -/
theorem weight_single (r : ℝ) :
    Ideal.div (Ideal.exp ((r : EReal) - max (⊥ : EReal) (max (r : EReal) ⊥)))
      (Ideal.exp ((r : EReal) - max (⊥ : EReal) (max (r : EReal) ⊥))) = 1 := by
  rw [max_single, exp_sub_self, div_one_one]

/-- The same in the form where the sum starts from an explicit zero. -/
theorem weight_single_zero (r : ℝ) :
    Ideal.div (Ideal.exp ((r : EReal) - max (⊥ : EReal) (max (r : EReal) ⊥)))
      (0 + Ideal.exp ((r : EReal) - max (⊥ : EReal) (max (r : EReal) ⊥))) = 1 := by
  rw [zero_add, weight_single]

/-- A maximum folded over an index set of one element, from `b`, is that element's value against `b`. -/
theorem fold_max_one {n : Nat} (hn : n = 1) (b : EReal) (f : Fin n → EReal) :
    (Finset.univ : Finset (Fin n)).fold max b f = max (f ⟨0, by omega⟩) b := by
  subst hn
  rw [Finset.univ_unique, Finset.fold_singleton]
  rfl

/-- A sum over an index set of one element is that element's value. -/
theorem sum_one {n : Nat} (hn : n = 1) (f : Fin n → EReal) : ∑ k : Fin n, f k = f ⟨0, by omega⟩ := by
  subst hn
  rw [Finset.univ_unique, Finset.sum_singleton]
  rfl

/-- An extended real whose absolute value `max x (-x)` is below plus infinity is a real number. -/
theorem real_of_abs_lt_top (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | top => simp [Ideal.cmp] at h
  | coe r => exact ⟨r, rfl⟩

end SingletonSoftmax

end
-- ==== Proof.Finite.lean ====
/-
  What the precondition says, entry by entry.

  The precondition is one bit: the conjunction, over the float arguments, of "every entry's absolute value is below
  plus infinity", and of "every entry of the variance is at least zero". An extended real whose absolute value is
  below plus infinity is a real number; so the input, γ, β, μ and the variance are real at every entry, and the
  variance's entries are nonnegative reals.
-/
import proofs.«119042_j39324720562890_1_alg».proof.Pre_finite_inputs
import proofs.«119042_j39324720562890_1_alg».proof.Proof.LibSingletonSoftmax
import Idealize.ShloMosaic.Lib.ReduceAll
import Idealize.ShloMosaic.Lib.Affine
import Idealize.ShloMosaic.Lib.ValueIdx
import Idealize.ShloMosaic.PureOps.Ideal.Laws

noncomputable section

namespace Cert.Pre_finite_inputs.Decode

open Cert.Pre_finite_inputs Idealize.ShloMosaic Idealize.ShloMosaic.ValueIdx

instance scalarIdx_subsingleton : Subsingleton S_.Idx := ⟨fun a b => funext fun d => d.elim0⟩

/-- "Every |x| is below +∞", as the precondition spells it, makes every entry a real number. -/
theorem real_of_all {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi (cmpf .olt (Host.absf x) (broadcastInDim s ![] hb (constant (F := Ideal) S_ .f32 0x7F800000#32)))
      (constantI S_ 1 1#1) hr hu ix0 = 1#1) (i : s.Idx) : ∃ r : ℝ, x i = (r : EReal) :=
  SingletonSoftmax.real_of_abs_lt_top (x i) (Host.reduce_andi_all _ _ hr hu ix0 e i)

/-- "x ≥ 0" as a comparison bit. -/
theorem nonneg_of_cmp (x : EReal) (h : Ideal.cmp .oge x (Ideal.ofBits .f32 0x00000000#32) = 1#1) : 0 ≤ x := by
  rw [Ideal.ofBits_zero_f32] at h
  by_contra hn
  simp [Ideal.cmp, hn] at h

/-- "Every x ≥ 0", as the precondition spells it. -/
theorem nonneg_of_all {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi (cmpf .oge x (broadcastInDim s ![] hb (constant (F := Ideal) S_ .f32 0x00000000#32)))
      (constantI S_ 1 1#1) hr hu ix0 = 1#1) (i : s.Idx) : 0 ≤ x i :=
  nonneg_of_cmp (x i) (Host.reduce_andi_all _ _ hr hu ix0 e i)

/-- The precondition, decoded: the input, γ, β, μ real at every entry; the variance a nonnegative real. -/
theorem decode [hF : Cert.Pre_finite_inputs.Facts] (x0 : FVec Ideal S16384x4096 .f32) (x1 : FVec Ideal S262144 .f32)
    (x2 x3 x4 x5 : FVec Ideal S4096 .f32) (x6 x7 : IVec S262144 32)
    (h : fn (F := Ideal) x0 x1 x2 x3 x4 x5 x6 x7 = fun _ => 1#1) :
    (∀ i, ∃ r : ℝ, x0 i = (r : EReal)) ∧ (∀ i, ∃ r : ℝ, x2 i = (r : EReal)) ∧ (∀ i, ∃ r : ℝ, x3 i = (r : EReal))
      ∧ (∀ i, ∃ r : ℝ, x4 i = (r : EReal)) ∧ (∀ i, ∃ r : ℝ, 0 ≤ r ∧ x5 i = (r : EReal)) := by
  have h0 := congrFun h ix0
  dsimp only [fn, fn_part1] at h0
  obtain ⟨h28, e31⟩ := IntOp.andi_eq_one.mp h0
  obtain ⟨h23, e27⟩ := IntOp.andi_eq_one.mp h28
  obtain ⟨h18, e22⟩ := IntOp.andi_eq_one.mp h23
  obtain ⟨h13, e17⟩ := IntOp.andi_eq_one.mp h18
  obtain ⟨h8, e12⟩ := IntOp.andi_eq_one.mp h13
  obtain ⟨e3, e7⟩ := IntOp.andi_eq_one.mp h8
  refine ⟨real_of_all x0 _ _ _ e3, real_of_all x2 _ _ _ e12, real_of_all x3 _ _ _ e17, real_of_all x4 _ _ _ e22, fun i => ?_⟩
  obtain ⟨r, hr⟩ := real_of_all x5 _ _ _ e27 i
  have hn := nonneg_of_all x5 _ _ _ e31 i
  rw [hr] at hn
  exact ⟨r, EReal.coe_nonneg.mp hn, hr⟩

end Cert.Pre_finite_inputs.Decode

end
-- ==== Proof.lean ====
/-
  A batch-norm folded into a per-channel scale and shift, followed by a product with a scattered weight matrix,
  against the reference that normalises first.

  With s = γ · rsqrt (v + ε), the kernel multiplies x · s + (β - μ · s) by the weights W, accumulating the product
  over eight stretches of 512 contracted positions in a carried block, per row of a 16 × 8 grid; the reference
  multiplies (x - μ) · s + β by the same W in one product. On the extended reals the two inner terms are one number
  when x, μ, γ, β are real and s is real — distributivity needs the reals — and s is real when the variance v is a
  nonnegative real, ε being a positive real; the precondition says exactly that. A sum over the contracted axis does
  not depend on how it is cut into stretches, and the narrowings to bf16 are the identity on extended reals, so the
  two results are equal entry by entry.

  The frames are the generated ones; the kernel's idealization rewrote nothing; the kernel's result array as the
  whole product is `Body.run`, the reference's run is the generated one, and `Bridge.product_eq_reference` joins
  them under the decoded precondition.
-/
import proofs.«119042_j39324720562890_1_alg».proof.Defs
import proofs.«119042_j39324720562890_1_alg».proof.Proof.Gen.Kernel
import proofs.«119042_j39324720562890_1_alg».proof.Proof.Gen.Kernel.Skeleton
import proofs.«119042_j39324720562890_1_alg».proof.Proof.Gen.Kernel.Launch
import proofs.«119042_j39324720562890_1_alg».proof.Proof.Gen.Kernel.Points
import proofs.«119042_j39324720562890_1_alg».proof.Proof.Gen.Kernel.Frame
import proofs.«119042_j39324720562890_1_alg».proof.Proof.Gen.KernelIdeal
import proofs.«119042_j39324720562890_1_alg».proof.Proof.Gen.KernelIdeal.Skeleton
import proofs.«119042_j39324720562890_1_alg».proof.Proof.Gen.KernelIdeal.Launch
import proofs.«119042_j39324720562890_1_alg».proof.Proof.Gen.KernelIdeal.Points
import proofs.«119042_j39324720562890_1_alg».proof.Proof.Gen.KernelIdeal.Frame
import proofs.«119042_j39324720562890_1_alg».proof.Proof.Gen.ReferenceIdeal
import proofs.«119042_j39324720562890_1_alg».proof.Proof.Gen.Pre_finite_inputs
import proofs.«119042_j39324720562890_1_alg».proof.Proof.Gen.KernelIdeal.Value
import proofs.«119042_j39324720562890_1_alg».proof.Proof.Gen.ReferenceIdeal.Run
import proofs.«119042_j39324720562890_1_alg».proof.Proof.Gen.ReferenceIdeal.Read
import proofs.«119042_j39324720562890_1_alg».proof.Proof.Chain
import proofs.«119042_j39324720562890_1_alg».proof.Proof.Bridge
import proofs.«119042_j39324720562890_1_alg».proof.Proof.Finite
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the whole product (x · s + (β - μ · s)) · W in their result arrays: the kernel by its
    running sums, the reference by its one product of the normalised input, equal under the precondition. -/
theorem algebraic : Cert.algebraic_KernelIdeal_ReferenceIdeal := by
  intro m ρ m' ρ' hpre hagree
  refine ⟨fun c => Cert.KernelIdeal.Body.product m c, Cert.KernelIdeal.Body.run m ρ, ?_⟩
  refine (θ_run Cert.ReferenceIdeal.defs _ _).mono (fun _ h c => ⟨(h c).1.trans ?_, (h c).2⟩)
    (Cert.ReferenceIdeal.Value.run (F := Ideal) m' ρ')
  obtain ⟨hx, hg, hb, hm, hv⟩ := Cert.Pre_finite_inputs.Decode.decode _ _ _ _ _ _ _ _ (hpre c)
  obtain ⟨a0, a1, a2, a3, a4, a5, a6, a7⟩ := hagree c
  rewrite [a0, a1, a2, a3, a4, a5, a6, a7, Cert.ReferenceIdeal.Read.val_main_v28_eq]
  exact (Cert.Bridge.product_eq_reference m c hx hg hb hm hv).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
